-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S2x8x128 : Shape := ⟨3, ![2, 8, 128]⟩
abbrev S2x8x4096 : Shape := ⟨3, ![2, 8, 4096]⟩
abbrev S512x4096 : Shape := ⟨2, ![512, 4096]⟩
abbrev S1x8x128 : Shape := ⟨3, ![1, 8, 128]⟩
abbrev S1x8x4096 : Shape := ⟨3, ![1, 8, 4096]⟩
abbrev S4096 : Shape := ⟨1, ![4096]⟩
abbrev S1x4096 : Shape := ⟨2, ![1, 4096]⟩
abbrev S1 : Shape := ⟨1, ![1]⟩
abbrev S1x1 : Shape := ⟨2, ![1, 1]⟩
abbrev S1x1x1 : Shape := ⟨3, ![1, 1, 1]⟩
abbrev S1x1x4096 : Shape := ⟨3, ![1, 1, 4096]⟩
abbrev S2x1x1 : Shape := ⟨3, ![2, 1, 1]⟩
abbrev S2 : Shape := ⟨1, ![2]⟩
abbrev S2x1x4096 : Shape := ⟨3, ![2, 1, 4096]⟩
abbrev S2x4096 : Shape := ⟨2, ![2, 4096]⟩
abbrev S_ : Shape := ⟨0, ![]⟩

abbrev nBuf : Space → Nat
  | .hbm => 17
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S2x8x128, .f32⟩
  | .hbm, ⟨2, _⟩ => ⟨S2x8x4096, .f32⟩
  | .hbm, ⟨3, _⟩ => ⟨S2x1x1, .f32⟩
  | .hbm, ⟨4, _⟩ => ⟨S2, .f32⟩
  | .hbm, ⟨5, _⟩ => ⟨S2x1x4096, .f32⟩
  | .hbm, ⟨6, _⟩ => ⟨S2x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S1x8x128, .f32⟩
  | .local _ .vmem, ⟨3, _⟩ => ⟨S1x8x128, .f32⟩
  | .local _ .vmem, ⟨4, _⟩ => ⟨S1x8x4096, .f32⟩
  | .local _ .vmem, ⟨5, _⟩ => ⟨S1x8x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S1x8x4096_S1x8x4096_0_0_0 : ∀ a, (![0, 0, 0] : Fin 3 → Nat) a + S1x8x4096.size a ≤ S1x8x4096.size a
  h_S1x8x4096 : 0 < S1x8x4096.numel
  inb_S512x4096_S512x4096_0_0 : ∀ a, (![0, 0] : Fin 2 → Nat) a + S512x4096.size a ≤ S512x4096.size a
  h_S512x4096 : 0 < S512x4096.numel
  reduces_S512x4096_S4096 : S512x4096.Reduces [0] S4096
  shapeCasts_S4096_S1x4096 : S4096.ShapeCasts S1x4096
  reduces_S1x4096_S1 : S1x4096.Reduces [1] S1
  shapeCasts_S1_S1x1 : S1.ShapeCasts S1x1
  shapeCasts_S1x8x128_S1x8x128 : S1x8x128.ShapeCasts S1x8x128
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  shapeCasts_S1x8x4096_S1x8x4096 : S1x8x4096.ShapeCasts S1x8x4096
  shapeCasts_S1x4096_S1x1x4096 : S1x4096.ShapeCasts S1x1x4096
  shapeCasts_S1x1x4096_S1x1x4096 : S1x1x4096.ShapeCasts S1x1x4096
  broadcasts_S1x1x4096_S1x8x4096 : S1x1x4096.Broadcasts S1x8x4096
  slices_S2x8x128_S2x1x1_0_0_0 : S2x8x128.Slices ![0, 0, 0] S2x1x1
  shapeCasts_S2x1x1_S2 : S2x1x1.ShapeCasts S2
  slices_S2x8x4096_S2x1x4096_0_0_0 : S2x8x4096.Slices ![0, 0, 0] S2x1x4096
  shapeCasts_S2x1x4096_S2x4096 : S2x1x4096.ShapeCasts S2x4096
  reducesTo_S2_S_d0 : S2.ReducesTo [0] S_
  h_S_ : 0 < S_.numel
  reducesTo_S2x4096_S4096_d0 : S2x4096.ReducesTo [0] S4096
  reducesTo_S4096_S_d0 : S4096.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S2x8x128.size a
  hwx0_1 : ∀ i : grid0.Coords, EltTy.bits .f32 = 32 ∨ (Rect.block (s := S2x8x128) S1x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x4096.size a ≤ S2x8x4096.size a
  hwx0_2 : ∀ i : grid0.Coords, EltTy.bits .f32 = 32 ∨ (Rect.block (s := S2x8x4096) S1x8x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x8x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩
abbrev S4096 : Shape := ⟨1, ![4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  reducesTo_S8192x4096_S_d0_1 : S8192x4096.ReducesTo [0, 1] S_
  h_S_ : 0 < S_.numel
  reducesTo_S8192x4096_S4096_d0 : S8192x4096.ReducesTo [0] S4096
  reducesTo_S4096_S_d0 : S4096.ReducesTo [0] S_

variable [Facts₀]

class Facts : Prop extends Facts₀ where

variable [Facts]
-- ==== Proof.BodyPieces.lean ====
/-
  What one grid step leaves in the two accumulator blocks, as pure terms of the step's input block and of what the
  blocks held before.

  The body first, at the first step of each core's run of eight, overwrites both accumulator blocks with zeros; then
  it loads the 512×4096 input block, and adds to the scalar accumulator block (1×8×128) the block's sum of squares
  splat over the block, and to the column accumulator block (1×8×4096) the block's column sums repeated down the
  eight sublanes. So a step that is not the first of its run leaves  acc + contribution(x)  in each block, and a
  first step leaves  0 + contribution(x).  Here the stores the run found are read back as these terms, for any
  float instance; the contributions are read as sums in BodyValue.lean.
-/
import proofs.«127539_j11665131176104_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later step of a run: the scalar accumulator block ends at  acc + (the input block's sum of squares, splat). -/
theorem later_sq (c : Dev nD) (i : grid0.Coords) (a2 : Memref sig .tc .vmem S512x4096 .f32) (h2 : a2.IsWhole)
    (a3 : Memref sig .tc .vmem S1x8x128 .f32) (h3 : a3.IsWhole) (a4 : Memref sig .tc .vmem S1x8x4096 .f32) (h4 : a4.IsWhole)
    (hc : ¬cond0_0 i) (x : Vec F S512x4096 .f32) (xo1 : Vec F S1x8x128 .f32) (xo2 : Vec F S1x8x4096 .f32) :
    out0_B_1 c i a2 h2 a3 h3 a4 h4 hc x xo1 xo2 = k0_pay3 x xo1 := by
  unfold out0_B_1
  rw [View.read_writes_eq_canon _ _ _ (cover0_B_1 c i a2 h2 a3 h3 a4 h4 hc x xo1 xo2)]
  unfold kernelRun0_B
  dsimp only
  rw [View.canon_unit_zero hz3]
  simp only [View.readAt_eq_ld, h2.read_unread, h3.read_unread, View.ld_unit_zero (S := S512x4096) hz2,
    View.ld_unit_zero (S := S1x8x128) hz3]

/-- A later step of a run: the column accumulator block ends at  acc + (the input block's column sums, repeated). -/
theorem later_col (c : Dev nD) (i : grid0.Coords) (a2 : Memref sig .tc .vmem S512x4096 .f32) (h2 : a2.IsWhole)
    (a3 : Memref sig .tc .vmem S1x8x128 .f32) (h3 : a3.IsWhole) (a4 : Memref sig .tc .vmem S1x8x4096 .f32) (h4 : a4.IsWhole)
    (hc : ¬cond0_0 i) (x : Vec F S512x4096 .f32) (xo1 : Vec F S1x8x128 .f32) (xo2 : Vec F S1x8x4096 .f32) :
    out0_B_2 c i a2 h2 a3 h3 a4 h4 hc x xo1 xo2 = k0_pay4 x xo2 := by
  unfold out0_B_2
  rw [View.read_writes_eq_canon _ _ _ (cover0_B_2 c i a2 h2 a3 h3 a4 h4 hc x xo1 xo2)]
  unfold kernelRun0_B
  dsimp only
  rw [View.canon_unit_zero hz3]
  simp only [View.readAt_eq_ld, h2.read_unread, h4.read_unread, View.ld_unit_zero (S := S512x4096) hz2,
    View.ld_unit_zero (S := S1x8x4096) hz3]

/-- A first step of a run: the scalar accumulator block is zeroed, read back, and ends at  0 + contribution. -/
theorem first_sq (c : Dev nD) (i : grid0.Coords) (a2 : Memref sig .tc .vmem S512x4096 .f32) (h2 : a2.IsWhole)
    (a3 : Memref sig .tc .vmem S1x8x128 .f32) (h3 : a3.IsWhole) (a4 : Memref sig .tc .vmem S1x8x4096 .f32) (h4 : a4.IsWhole)
    (hc : cond0_0 i) (x : Vec F S512x4096 .f32) :
    out0_A_1 c i a2 h2 a3 h3 a4 h4 hc x = k0_pay3 x (k0_pay1 (F := F)) := by
  unfold out0_A_1
  rw [View.read_writes_eq_canon _ _ _ (cover0_A_1 c i a2 h2 a3 h3 a4 h4 hc x)]
  unfold kernelRun0_A
  dsimp only
  sl_unfold_words
  rw [View.canon_cons_unit_zero (S := S1x8x128) hz3, View.readCov_unit_zero (S := S1x8x128) _ hz3]
  simp only [View.readAt_eq_ld, h2.read_unread, View.ld_unit_zero (S := S512x4096) hz2]

/-- A first step of a run: the column accumulator block is zeroed, read back, and ends at  0 + contribution. -/
theorem first_col (c : Dev nD) (i : grid0.Coords) (a2 : Memref sig .tc .vmem S512x4096 .f32) (h2 : a2.IsWhole)
    (a3 : Memref sig .tc .vmem S1x8x128 .f32) (h3 : a3.IsWhole) (a4 : Memref sig .tc .vmem S1x8x4096 .f32) (h4 : a4.IsWhole)
    (hc : cond0_0 i) (x : Vec F S512x4096 .f32) :
    out0_A_2 c i a2 h2 a3 h3 a4 h4 hc x = k0_pay4 x (k0_pay2 (F := F)) := by
  unfold out0_A_2
  rw [View.read_writes_eq_canon _ _ _ (cover0_A_2 c i a2 h2 a3 h3 a4 h4 hc x)]
  unfold kernelRun0_A
  dsimp only
  sl_unfold_words
  rw [View.canon_cons_unit_zero (S := S1x8x4096) hz3, View.readCov_unit_zero (S := S1x8x4096) _ hz3]
  simp only [View.readAt_eq_ld, h2.read_unread, View.ld_unit_zero (S := S512x4096) hz2]

end Cert.KernelIdeal.Body

end
-- ==== Proof.BodyValue.lean ====
/-
  One grid step's two contributions, as sums over the extended reals.

  For a 512×4096 input block x the step adds to every entry of the scalar accumulator block
      ∑_d ∑_r x(r,d)·x(r,d)          (squares summed down each column, then across the columns)
  and to entry (·, ·, d) of the column accumulator block
      ∑_r x(r,d)                      (the column's sum).
  The reductions start from the zero word, which is the neutral element, so no initial term appears; the reshapes
  between the two reductions and the splat over the 1×8×128 block only move the one value around, and the reshapes
  and the sublane broadcast of the column sums keep the lane coordinate d.
-/
import proofs.«127539_j11665131176104_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Body

open Cert.KernelIdeal Cert.KernelIdeal.Gen

/-- The shape [1] has one index. -/
instance : Subsingleton S1.Idx := ⟨fun a b => funext fun d => match d with
  | ⟨0, hd⟩ => Fin.ext (by
      have h1 : (a ⟨0, hd⟩).val < 1 := (a ⟨0, hd⟩).isLt
      have h2 : (b ⟨0, hd⟩).val < 1 := (b ⟨0, hd⟩).isLt
      omega)⟩

/-- A reduction of a 512×4096 block along its rows, at lane d: the column's sum. -/
theorem colsum_at (x : FVec Ideal S512x4096 .f32) (h : S512x4096.Reduces [0] S4096) (hφ : FKind.Formats .f32)
    (hacc : (0x00000000#32 : BitVec 32) = FKind.add.neutral .f32 hφ) (d : Fin 4096) :
    multiReduction (F := Ideal) .add [0] S4096 x 0x00000000#32 h hφ hacc (ix1 d) = ∑ r : Fin 512, x (ix2 r d) := by
  refine (Ideal.multiReduction_add_single x 0x00000000#32 h hφ hacc (ix1 d)).trans ?_
  refine Finset.sum_congr rfl fun r _ => congrArg x ?_
  funext a; match a with | ⟨0, _⟩ => rfl | ⟨1, _⟩ => rfl

/-- A reduction of a 1×4096 row along its lanes: the row's sum. -/
theorem lanesum_at (v : FVec Ideal S1x4096 .f32) (h : S1x4096.Reduces [1] S1) (hφ : FKind.Formats .f32)
    (hacc : (0x00000000#32 : BitVec 32) = FKind.add.neutral .f32 hφ) (j : S1.Idx) :
    multiReduction (F := Ideal) .add [1] S1 v 0x00000000#32 h hφ hacc j = ∑ d : Fin 4096, v (ix2 (0 : Fin 1) d) := by
  refine (Ideal.multiReduction_add_single v 0x00000000#32 h hφ hacc j).trans ?_
  refine Finset.sum_congr rfl fun d _ => congrArg v ?_
  funext a
  match a with
  | ⟨0, _⟩ => exact Fin.ext (by show (j 0).val = 0; have h1 : (j 0).val < 1 := (j 0).isLt; omega)
  | ⟨1, _⟩ => rfl

/-- A one-element vector reshaped to 1×1, to 1×1×1, and splat over a 1×8×128 block: every entry is the one value. -/
theorem splat_at (v : FVec Ideal S1 .f32) (h1 : S1.ShapeCasts S1x1) (h2 : S1x1.ShapeCasts S1x1x1)
    (h3 : S1x1x1.ShapeCasts S1x1x1) (hb : S1x1x1.Broadcasts S1x8x128) (y : S1x8x128.Idx) :
    broadcastTo S1x8x128 (shapeCast S1x1x1 (shapeCast S1x1x1 (shapeCast S1x1 v h1) h2) h3) hb y = v (ix1 (0 : Fin 1)) := by
  unfold broadcastTo shapeCast
  exact congrArg v (Subsingleton.elim _ _)

/-- The scalar accumulator's new contents: the old ones plus the block's sum of squares, at every entry. -/
theorem sq_step (x : Vec Ideal S512x4096 .f32) (acc : Vec Ideal S1x8x128 .f32) (y : S1x8x128.Idx) :
    k0_pay3 (F := Ideal) x acc y = acc y + ∑ d : Fin 4096, ∑ r : Fin 512, x (ix2 r d) * x (ix2 r d) := by
  have e : k0_pay3 (F := Ideal) x acc y
      = shapeCast S1x8x128 acc shapeCasts_S1x8x128_S1x8x128 y
        + broadcastTo S1x8x128 (shapeCast S1x1x1 (shapeCast S1x1x1 (shapeCast S1x1
            (multiReduction (F := Ideal) .add [1] S1 (shapeCast S1x4096
              (multiReduction (F := Ideal) .add [0] S4096 (mulf x x) 0x00000000#32 reduces_S512x4096_S4096 (.inl rfl) rfl)
              shapeCasts_S4096_S1x4096) 0x00000000#32 reduces_S1x4096_S1 (.inl rfl) rfl)
            shapeCasts_S1_S1x1) shapeCasts_S1x1_S1x1x1) shapeCasts_S1x1x1_S1x1x1) broadcasts_S1x1x1_S1x8x128 y := rfl
  rw [e, shapeCast_self, splat_at]
  refine congrArg (acc y + ·) ((lanesum_at _ reduces_S1x4096_S1 (.inl rfl) rfl (ix1 (0 : Fin 1))).trans ?_)
  refine Finset.sum_congr rfl fun d _ => ?_
  rw [shapeCast_a_1a_apply]
  exact colsum_at (mulf x x) reduces_S512x4096_S4096 (.inl rfl) rfl d

/-- The column accumulator's new contents: the old ones plus the block's column sums, at lane d of every sublane. -/
theorem col_step (x : Vec Ideal S512x4096 .f32) (acc : Vec Ideal S1x8x4096 .f32) (u : Fin 1) (s : Fin 8) (d : Fin 4096) :
    k0_pay4 (F := Ideal) x acc (ix3 u s d) = acc (ix3 u s d) + ∑ r : Fin 512, x (ix2 r d) := by
  have e : k0_pay4 (F := Ideal) x acc (ix3 u s d)
      = shapeCast S1x8x4096 acc shapeCasts_S1x8x4096_S1x8x4096 (ix3 u s d)
        + broadcastTo S1x8x4096 (shapeCast S1x1x4096 (shapeCast S1x1x4096 (shapeCast S1x4096
            (multiReduction (F := Ideal) .add [0] S4096 x 0x00000000#32 reduces_S512x4096_S4096 (.inl rfl) rfl)
            shapeCasts_S4096_S1x4096) shapeCasts_S1x4096_S1x1x4096) shapeCasts_S1x1x4096_S1x1x4096)
            broadcasts_S1x1x4096_S1x8x4096 (ix3 u s d) := rfl
  rw [e, shapeCast_self]
  refine congrArg (acc (ix3 u s d) + ·) ?_
  refine (broadcastTo_apply _ broadcasts_S1x1x4096_S1x8x4096 (ix3 u s d) (ix3 (0 : Fin 1) (0 : Fin 1) d) fun a => ?_).trans ?_
  · match a with
    | ⟨0, _⟩ => rfl
    | ⟨1, _⟩ => rfl
    | ⟨2, _⟩ => rfl
  rw [shapeCast_self, shapeCast_ab_1ab_apply, shapeCast_a_1a_apply]
  exact colsum_at x reduces_S512x4096_S4096 (.inl rfl) rfl d

end Cert.KernelIdeal.Body

end
-- ==== Proof.LibBlockSums.lean ====
/-
  A sum over consecutive rows, cut into blocks.

  The rows 0 … A·B − 1 are A consecutive blocks of B rows, row a·B + b being row b of block a; a sum over the rows is the
  sum over the blocks of the sums over each block's rows, and so is a sum restricted to the rows that satisfy a
  predicate (the rows of one class): it is the sum over the blocks of the sums over each block's rows of the class.
  The same from a base row on, and for a stretch of rows cut in two. These are the regroupings behind "every worker
  sums its own rows, the partial sums are added up": no order or grouping is left in a sum of a commutative monoid.
-/
import Idealize.ShloMosaic.PureOps.Ideal

open scoped BigOperators

namespace Cert.LibBlockSums

variable {M : Type*} [AddCommMonoid M]

/-- A·B consecutive rows as A blocks of B. -/
theorem sum_range_mul (A B : ℕ) (f : ℕ → M) :
    ∑ n ∈ Finset.range (A * B), f n = ∑ a ∈ Finset.range A, ∑ b ∈ Finset.range B, f (a * B + b) := by
  induction A with
  | zero => simp
  | succ A ih =>
    rw [Nat.succ_mul, Finset.sum_range_add, ih, Finset.sum_range_succ]

/-- The rows of a class among A·B consecutive rows, block by block. -/
theorem sum_filter_range_mul (A B : ℕ) (p : ℕ → Prop) [DecidablePred p] (f : ℕ → M) :
    ∑ n ∈ (Finset.range (A * B)).filter p, f n
      = ∑ a ∈ Finset.range A, ∑ b ∈ (Finset.range B).filter (fun b => p (a * B + b)), f (a * B + b) := by
  rw [Finset.sum_filter, sum_range_mul]
  refine Finset.sum_congr rfl fun a _ => ?_
  rw [Finset.sum_filter]

/-- The same for the rows base … base + A·B − 1. -/
theorem sum_filter_range_mul_from (base A B : ℕ) (p : ℕ → Prop) [DecidablePred p] (f : ℕ → M) :
    ∑ n ∈ (Finset.range (A * B)).filter (fun n => p (base + n)), f (base + n)
      = ∑ a ∈ Finset.range A, ∑ b ∈ (Finset.range B).filter (fun b => p (base + (a * B + b))), f (base + (a * B + b)) :=
  sum_filter_range_mul A B (fun n => p (base + n)) (fun n => f (base + n))

/-- A stretch of rows cut in two: the first N₁ rows and the N₂ rows after them. -/
theorem sum_filter_range_add (N₁ N₂ : ℕ) (p : ℕ → Prop) [DecidablePred p] (f : ℕ → M) :
    ∑ n ∈ (Finset.range (N₁ + N₂)).filter p, f n
      = ∑ n ∈ (Finset.range N₁).filter p, f n + ∑ n ∈ (Finset.range N₂).filter (fun n => p (N₁ + n)), f (N₁ + n) := by
  rw [Finset.sum_filter, Finset.sum_range_add, Finset.sum_filter, Finset.sum_filter]

/-- A sum over the rows of a class as a sum over all rows of the row's term or zero: the form an accumulating scatter
    reads at one element. -/
theorem sum_filter_eq_sum_ite (N : ℕ) (p : ℕ → Prop) [DecidablePred p] (f : ℕ → M) :
    ∑ n ∈ (Finset.range N).filter p, f n = ∑ n ∈ Finset.range N, (if p n then f n else 0) :=
  Finset.sum_filter _ _

/-- A sum over `Fin N` is the sum over the first N natural numbers of any extension of the summand. -/
theorem sum_fin_eq_sum_range (N : ℕ) (f : ℕ → M) : ∑ n : Fin N, f n.val = ∑ n ∈ Finset.range N, f n :=
  Fin.sum_univ_eq_sum_range f N

end Cert.LibBlockSums
-- ==== Proof.Sums.lean ====
/-
  The arithmetic of the streaming reduction, with no program in sight.

  X is an 8192×4096 array of extended reals. Its rows are cut into 16 blocks of 512 consecutive rows; blocks
  0…7 are summed, one after the other, into one pair of accumulators and blocks 8…15 into another. For block j
      blockSq X j     = ∑_d ∑_{r<512} X(512j+r, d)²          blockCol X j d = ∑_{r<512} X(512j+r, d)
  and after step n (n = 8c + i) the accumulators of run c hold the blocks 8c … 8c+i added up (runSq, runCol).
  Adding the two runs' final values gives the sums over ALL rows (total_sq, total_col): addition of extended reals
  is commutative and associative, so the grouping into blocks and runs, and the order rows-then-lanes against
  lanes-then-rows, leave the sums unchanged. Nothing here needs the entries to be finite.
-/
import Idealize.ShloMosaic.PureOps.Ideal
import Idealize.ShloMosaic.Lib.ValueIdx
import proofs.«127539_j11665131176104_2_alg».proof.Proof.LibBlockSums

noncomputable section

open Idealize.ShloMosaic Idealize.ShloMosaic.ValueIdx
open scoped BigOperators

namespace Cert.Streaming

/-- An 8192×4096 array of extended reals. -/
abbrev Arr := (⟨2, ![8192, 4096]⟩ : Shape).Idx → EReal

/-- Row R of the array at lane d (zero past the last row, so that every natural number names a row). -/
def rowN (X : Arr) (R : ℕ) (d : Fin 4096) : EReal := if h : R < 8192 then X (ix2 ⟨R, h⟩ d) else 0

theorem rowN_fin (X : Arr) (R : Fin 8192) (d : Fin 4096) : rowN X R.val d = X (ix2 R d) := by
  unfold rowN; rw [dif_pos R.isLt]

/-- Block j's sum of squares: down each column, then across the columns. -/
def blockSq (X : Arr) (j : ℕ) : EReal :=
  ∑ d : Fin 4096, ∑ r ∈ Finset.range 512, rowN X (j * 512 + r) d * rowN X (j * 512 + r) d

/-- Block j's column sums. -/
def blockCol (X : Arr) (j : ℕ) (d : Fin 4096) : EReal := ∑ r ∈ Finset.range 512, rowN X (j * 512 + r) d

/-- The scalar accumulator after step n: the blocks of n's run of eight, up to n. -/
def runSq (X : Arr) (n : ℕ) : EReal := ∑ k ∈ Finset.range (n % 8 + 1), blockSq X (n - n % 8 + k)

/-- The column accumulator after step n, at lane d. -/
def runCol (X : Arr) (n : ℕ) (d : Fin 4096) : EReal := ∑ k ∈ Finset.range (n % 8 + 1), blockCol X (n - n % 8 + k) d

theorem runSq_first (X : Arr) (n : ℕ) (h : n % 8 = 0) : runSq X n = blockSq X n := by
  unfold runSq; rw [h, Finset.sum_range_one, Nat.sub_zero, Nat.add_zero]

theorem runCol_first (X : Arr) (n : ℕ) (h : n % 8 = 0) (d : Fin 4096) : runCol X n d = blockCol X n d := by
  unfold runCol; rw [h, Finset.sum_range_one, Nat.sub_zero, Nat.add_zero]

theorem runSq_next (X : Arr) (n : ℕ) (h : ¬(n + 1) % 8 = 0) : runSq X (n + 1) = runSq X n + blockSq X (n + 1) := by
  have h1 : (n + 1) % 8 = n % 8 + 1 := by omega
  have h2 : n + 1 - (n % 8 + 1) = n - n % 8 := by omega
  have h3 : n - n % 8 + (n % 8 + 1) = n + 1 := by omega
  unfold runSq; rw [h1, h2, Finset.sum_range_succ (n := n % 8 + 1), h3]

theorem runCol_next (X : Arr) (n : ℕ) (h : ¬(n + 1) % 8 = 0) (d : Fin 4096) :
    runCol X (n + 1) d = runCol X n d + blockCol X (n + 1) d := by
  have h1 : (n + 1) % 8 = n % 8 + 1 := by omega
  have h2 : n + 1 - (n % 8 + 1) = n - n % 8 := by omega
  have h3 : n - n % 8 + (n % 8 + 1) = n + 1 := by omega
  unfold runCol; rw [h1, h2, Finset.sum_range_succ (n := n % 8 + 1), h3]

/-- At the last step of run c the accumulators hold all eight blocks of the run. -/
theorem runSq_last (X : Arr) (c : ℕ) : runSq X (8 * c + 7) = ∑ k ∈ Finset.range 8, blockSq X (c * 8 + k) := by
  have h1 : (8 * c + 7) % 8 = 7 := by omega
  unfold runSq; rw [h1]
  refine Finset.sum_congr rfl fun k _ => congrArg (blockSq X) (by omega)

theorem runCol_last (X : Arr) (c : ℕ) (d : Fin 4096) :
    runCol X (8 * c + 7) d = ∑ k ∈ Finset.range 8, blockCol X (c * 8 + k) d := by
  have h1 : (8 * c + 7) % 8 = 7 := by omega
  unfold runCol; rw [h1]
  refine Finset.sum_congr rfl fun k _ => congrArg (blockCol X · d) (by omega)

/-- The two runs' column sums added: the sum of the whole column. -/
theorem total_col (X : Arr) (d : Fin 4096) : ∑ c : Fin 2, runCol X (8 * c.val + 7) d = ∑ R : Fin 8192, X (ix2 R d) := by
  rw [Fin.sum_univ_eq_sum_range (fun c => runCol X (8 * c + 7) d) 2]
  simp only [runCol_last]
  rw [← Cert.LibBlockSums.sum_range_mul 2 8 (fun j => blockCol X j d)]
  unfold blockCol
  rw [← Cert.LibBlockSums.sum_range_mul (2 * 8) 512 (fun R => rowN X R d)]
  rw [← Fin.sum_univ_eq_sum_range (fun R => rowN X R d) (2 * 8 * 512)]
  exact Finset.sum_congr rfl fun R _ => rowN_fin X R d

/-- The two runs' sums of squares added: the sum of the squares of every entry. -/
theorem total_sq (X : Arr) : ∑ c : Fin 2, runSq X (8 * c.val + 7) = ∑ j, X j * X j := by
  rw [Fin.sum_univ_eq_sum_range (fun c => runSq X (8 * c + 7)) 2]
  simp only [runSq_last]
  rw [← Cert.LibBlockSums.sum_range_mul 2 8 (fun j => blockSq X j)]
  unfold blockSq
  rw [Finset.sum_comm]
  have e : ∀ d : Fin 4096, ∑ j ∈ Finset.range (2 * 8), ∑ r ∈ Finset.range 512, rowN X (j * 512 + r) d * rowN X (j * 512 + r) d
      = ∑ R : Fin 8192, X (ix2 R d) * X (ix2 R d) := fun d => by
    rw [← Cert.LibBlockSums.sum_range_mul (2 * 8) 512 (fun R => rowN X R d * rowN X R d)]
    rw [← Fin.sum_univ_eq_sum_range (fun R => rowN X R d * rowN X R d) (2 * 8 * 512)]
    exact Finset.sum_congr rfl fun R _ => by rw [rowN_fin]
  simp only [e]
  rw [Finset.sum_comm, sum_idx2]

/-- The scalar output array [2, 8, 128] after the last step: slab c holds run c's sum of squares at every entry. -/
def sqArr (X : Arr) : (⟨3, ![2, 8, 128]⟩ : Shape).Idx → EReal := fun y => runSq X (8 * (y 0).val + 7)

/-- The column output array [2, 8, 4096] after the last step: slab c holds run c's column sums on every sublane. -/
def colArr (X : Arr) : (⟨3, ![2, 8, 4096]⟩ : Shape).Idx → EReal := fun y => runCol X (8 * (y 0).val + 7) (y 2)

end Cert.Streaming

end
-- ==== Proof.Steps.lean ====
/-
  One grid step against the arithmetic of Sums.lean.

  If the step's input block B holds rows 512n … 512n+511 of X, its two contributions are blockSq X n and
  blockCol X n; so a first step of a run leaves the run's sums after one block (the zeroed accumulators plus the
  contribution: 0 + a = a), and a later step takes the sums after step n to the sums after step n+1.
  Stated over a variable block and variable accumulators; the frame's blocks are put in afterwards.
-/
import proofs.«127539_j11665131176104_2_alg».proof.Proof.BodyValue
import proofs.«127539_j11665131176104_2_alg».proof.Proof.Sums

noncomputable section

open Idealize.ShloMosaic Idealize.ShloMosaic.ValueIdx
open scoped BigOperators

namespace Cert.KernelIdeal.Body

open Cert.KernelIdeal Cert.KernelIdeal.Gen Cert.Streaming

/-- The zero block a first step stores into the scalar accumulator. -/
theorem zero_sq (y : S1x8x128.Idx) : k0_pay1 (F := Ideal) y = (0 : EReal) := by
  show (Ideal.ofBits .f32 0x00000000#32 : EReal) = 0
  exact Ideal.ofBits_zero_f32

/-- The zero block a first step stores into the column accumulator. -/
theorem zero_col (y : S1x8x4096.Idx) : k0_pay2 (F := Ideal) y = (0 : EReal) := by
  show (Ideal.ofBits .f32 0x00000000#32 : EReal) = 0
  exact Ideal.ofBits_zero_f32

/-- A block holding rows 512n … 512n+511 contributes block n's sum of squares, -/
theorem blockSq_of (X : Arr) (n : ℕ) (B : Vec Ideal S512x4096 .f32)
    (hB : ∀ (r : Fin 512) (d : Fin 4096), B (ix2 r d) = rowN X (n * 512 + r.val) d) :
    ∑ d : Fin 4096, ∑ r : Fin 512, B (ix2 r d) * B (ix2 r d) = blockSq X n := by
  unfold blockSq
  refine Finset.sum_congr rfl fun d _ => ?_
  rw [← Fin.sum_univ_eq_sum_range (fun r => rowN X (n * 512 + r) d * rowN X (n * 512 + r) d) 512]
  exact Finset.sum_congr rfl fun r _ => by rw [hB]

/-- and block n's column sums. -/
theorem blockCol_of (X : Arr) (n : ℕ) (B : Vec Ideal S512x4096 .f32)
    (hB : ∀ (r : Fin 512) (d : Fin 4096), B (ix2 r d) = rowN X (n * 512 + r.val) d) (d : Fin 4096) :
    ∑ r : Fin 512, B (ix2 r d) = blockCol X n d := by
  unfold blockCol
  rw [← Fin.sum_univ_eq_sum_range (fun r => rowN X (n * 512 + r) d) 512]
  exact Finset.sum_congr rfl fun r _ => hB r d

/-- A first step of a run (n ≡ 0 mod 8): both accumulators end at the run's sums after its first block. -/
theorem first_step (X : Arr) (n : ℕ) (hn : n % 8 = 0) (B : Vec Ideal S512x4096 .f32)
    (hB : ∀ (r : Fin 512) (d : Fin 4096), B (ix2 r d) = rowN X (n * 512 + r.val) d) :
    (∀ y : S1x8x128.Idx, k0_pay3 (F := Ideal) B (k0_pay1 (F := Ideal)) y = runSq X n)
    ∧ (∀ (u : Fin 1) (s : Fin 8) (d : Fin 4096), k0_pay4 (F := Ideal) B (k0_pay2 (F := Ideal)) (ix3 u s d) = runCol X n d) := by
  refine ⟨fun y => ?_, fun u s d => ?_⟩
  · rw [sq_step, zero_sq, zero_add, blockSq_of X n B hB, runSq_first X n hn]
  · rw [col_step, zero_col, zero_add, blockCol_of X n B hB d, runCol_first X n hn d]

/-- A later step of a run: the sums after step n become the sums after step n+1. -/
theorem later_step (X : Arr) (n : ℕ) (hn : ¬(n + 1) % 8 = 0) (B : Vec Ideal S512x4096 .f32)
    (hB : ∀ (r : Fin 512) (d : Fin 4096), B (ix2 r d) = rowN X ((n + 1) * 512 + r.val) d)
    (a1 : Vec Ideal S1x8x128 .f32) (a2 : Vec Ideal S1x8x4096 .f32)
    (h1 : ∀ y : S1x8x128.Idx, a1 y = runSq X n)
    (h2 : ∀ (u : Fin 1) (s : Fin 8) (d : Fin 4096), a2 (ix3 u s d) = runCol X n d) :
    (∀ y : S1x8x128.Idx, k0_pay3 (F := Ideal) B a1 y = runSq X (n + 1))
    ∧ (∀ (u : Fin 1) (s : Fin 8) (d : Fin 4096), k0_pay4 (F := Ideal) B a2 (ix3 u s d) = runCol X (n + 1) d) := by
  refine ⟨fun y => ?_, fun u s d => ?_⟩
  · rw [sq_step, h1, blockSq_of X (n + 1) B hB, runSq_next X n hn]
  · rw [col_step, h2, blockCol_of X (n + 1) B hB d, runCol_next X n hn d]

end Cert.KernelIdeal.Body

end
-- ==== Proof.Accumulate.lean ====
/-
  What the two accumulator blocks hold after every grid step.

  Step t (t = 0 … 15, core t/8, position t%8 in the core's run) is given rows 512t … 512t+511 of the argument
  array: the input window's block index is (8·(t/8) + t%8, 0) = (t, 0). By induction on the step — a first
  step of a run restarts from zero, a later step adds to what the step before left — the scalar accumulator block
  holds, at every entry, the sum of squares of the run's blocks up to t, and the column accumulator block holds,
  at lane d of every sublane, the column sums of those blocks (Sums.lean's runSq and runCol).
-/
import proofs.«127539_j11665131176104_2_alg».proof.Proof.BodyPieces
import proofs.«127539_j11665131176104_2_alg».proof.Proof.Steps

noncomputable section

open Idealize.ShloMosaic Idealize.ShloMosaic.TcCoe Idealize.SL.Sem Idealize.ShloMosaic.ValueIdx
open Idealize.ShloMosaic.Pipeline (Dat)
open scoped BigOperators

namespace Cert.KernelIdeal.Accum

open Cert.KernelIdeal Cert.KernelIdeal.Gen Cert.KernelIdeal.Body Cert.Streaming

variable (m : (ℓ : Loc nD τ sig) → Buf (Elt Ideal) ℓ)

/-- The argument array as the region finds it. -/
abbrev X (c : Dev nD) : Arr := V m c main_arg0

/-- The input window's block index at step t is (t, 0): decided over the sixteen steps. -/
theorem idx_rows : ∀ t : Fin cfg0.N, win0_0.index t 0 = t.val ∧ win0_0.index t 1 = 0 :=
  (by decide +kernel : ∀ t : Fin grid0.N, win0_0.index t 0 = t.val ∧ win0_0.index t 1 = 0)

/-- So the block step t is given holds rows 512t … 512t+511 of the argument array. -/
theorem iblk_rows (c : Dev nD) (t : Fin cfg0.N) (r : Fin 512) (d : Fin 4096) :
    (iblk m c 0 t : Vec Ideal S512x4096 .f32) (ix2 r d) = rowN (X m c) (t.val * 512 + r.val) d := by
  have hN : t.val < 16 := lt_of_lt_of_eq t.isLt (show cfg0.N = 16 from N_0)
  have hi := idx_rows t
  have hr : r.val < 512 := r.isLt
  unfold iblk
  rw [View.read_apply]
  show V m c main_arg0 _ = _
  unfold rowN
  rw [dif_pos (by omega)]
  refine congrArg (V m c main_arg0) (funext fun a => Fin.ext ?_)
  match a with
  | ⟨0, _⟩ => show win0_0.index t 0 * 512 + 1 * r.val = t.val * 512 + r.val; rw [hi.1]; omega
  | ⟨1, _⟩ => show win0_0.index t 1 * 4096 + 1 * d.val = d.val; rw [hi.2]; omega

/-- After step n the accumulator blocks hold the running sums of n's run. -/
theorem outsAt_eq (c : Dev nD) : ∀ (n : ℕ) (h : n < cfg0.N),
    (∀ y : S1x8x128.Idx, (outsAt0 m c n h).1 y = runSq (X m c) n)
    ∧ (∀ (u : Fin 1) (s : Fin 8) (d : Fin 4096), (outsAt0 m c n h).2 (ix3 u s d) = runCol (X m c) n d)
  | 0, h => by
    rw [outsAt0_A m c ⟨0, h⟩ rfl]
    dsimp only
    rw [first_sq c _ _ _ _ _ _ _ _ (iblk m c 0 ⟨0, h⟩), first_col c _ _ _ _ _ _ _ _ (iblk m c 0 ⟨0, h⟩)]
    exact first_step (X m c) 0 rfl (iblk m c 0 ⟨0, h⟩) (fun r d => iblk_rows m c ⟨0, h⟩ r d)
  | n + 1, h => by
    by_cases h0 : (n + 1) % 8 = 0
    · rw [outsAt0_A m c ⟨n + 1, h⟩ h0]
      dsimp only
      rw [first_sq c _ _ _ _ _ _ _ _ (iblk m c 0 ⟨n + 1, h⟩), first_col c _ _ _ _ _ _ _ _ (iblk m c 0 ⟨n + 1, h⟩)]
      exact first_step (X m c) (n + 1) h0 (iblk m c 0 ⟨n + 1, h⟩) (fun r d => iblk_rows m c ⟨n + 1, h⟩ r d)
    · have ih := outsAt_eq c n (Nat.lt_of_succ_lt h)
      rw [outsAt0_B m c ⟨n + 1, h⟩ h0]
      dsimp only
      rw [later_sq c _ _ _ _ _ _ _ _ (iblk m c 0 ⟨n + 1, h⟩) _ _, later_col c _ _ _ _ _ _ _ _ (iblk m c 0 ⟨n + 1, h⟩) _ _]
      exact later_step (X m c) n h0 (iblk m c 0 ⟨n + 1, h⟩) (fun r d => iblk_rows m c ⟨n + 1, h⟩ r d)
        (outsAt0 m c n (Nat.lt_of_succ_lt h)).1 (outsAt0 m c n (Nat.lt_of_succ_lt h)).2 ih.1 ih.2

/-- The scalar accumulator block after step t, at any entry. -/
theorem acc_sq (c : Dev nD) (t : Fin cfg0.N) (z : S1x8x128.Idx) :
    (outsAt0 m c t.val t.isLt).1 z = runSq (X m c) t.val := (outsAt_eq m c t.val t.isLt).1 z

/-- The column accumulator block after step t, at any entry: it depends on the lane only. -/
theorem acc_col (c : Dev nD) (t : Fin cfg0.N) (z : S1x8x4096.Idx) :
    (outsAt0 m c t.val t.isLt).2 z = runCol (X m c) t.val (z 2) :=
  (congrArg (outsAt0 m c t.val t.isLt).2 (eq_ix3 z)).trans ((outsAt_eq m c t.val t.isLt).2 (z 0) (z 1) (z 2))

end Cert.KernelIdeal.Accum

end
-- ==== Proof.FinalArrays.lean ====
/-
  The two output arrays after the region.

  Both output windows have block index (t/8, 0, 0): core c's eight steps work on slab c of the [2, 8, 128] and
  [2, 8, 4096] arrays, and the slab is written back once, after the run's last step (t ≡ 7 mod 8). What is written
  back is the accumulator block after that step, so slab c ends holding run c's complete sums: the arrays are
  Sums.lean's sqArr and colArr of the argument array. The two write-backs (t = 7 and t = 15) cover both slabs.
-/
import proofs.«127539_j11665131176104_2_alg».proof.Proof.Accumulate

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Body Cert.Streaming

variable (m : (ℓ : Loc nD τ sig) → Buf (Elt Ideal) ℓ)

/-- The output windows' block indices, decided over the sixteen steps: slab t/8, nothing else moves. -/
theorem idx_slabs : ∀ t : Fin cfg0.N, win0_1.index t (0 : Fin 3) = t.val / 8 ∧ win0_1.index t (1 : Fin 3) = 0
    ∧ win0_1.index t (2 : Fin 3) = 0 ∧ win0_2.index t (0 : Fin 3) = t.val / 8 ∧ win0_2.index t (1 : Fin 3) = 0
    ∧ win0_2.index t (2 : Fin 3) = 0 :=
  (by decide +kernel : ∀ t : Fin grid0.N, _)

/-- What a write-back of the scalar window writes is its slab of sqArr. -/
theorem flushed_sq (c : Dev nD) (t : Fin cfg0.N) (hf : (cfg0.win 1).flush t = true) :
    (dats m 0 c).flushed 1 t = ((cfg0.win 1).blk t).view.read (Elt Ideal) (sqArr (X m c)) := by
  have hN : t.val < 16 := lt_of_lt_of_eq t.isLt (show cfg0.N = 16 from N_0)
  have h7 : t.val % 8 = 7 := (flush0_1 t).mp hf
  obtain ⟨e0, e1, e2, -, -, -⟩ := idx_slabs t
  show (cfg0.win 1).cut (grid0.coords t) ((dats m 0 c).after 1 t) = _
  rw [after0_1]
  funext y
  rw [View.read_apply]
  show (outsAt0 m c t.val t.isLt).1 _ = sqArr (X m c) _
  rw [acc_sq]
  unfold sqArr
  refine congrArg (runSq (X m c)) ?_
  have hy : (y 0).val < 1 := (y 0).isLt
  show t.val = 8 * (win0_1.index t (0 : Fin 3) * 1 + 1 * (y 0).val) + 7
  omega

/-- What a write-back of the column window writes is its slab of colArr. -/
theorem flushed_col (c : Dev nD) (t : Fin cfg0.N) (hf : (cfg0.win 2).flush t = true) :
    (dats m 0 c).flushed 2 t = ((cfg0.win 2).blk t).view.read (Elt Ideal) (colArr (X m c)) := by
  have hN : t.val < 16 := lt_of_lt_of_eq t.isLt (show cfg0.N = 16 from N_0)
  have h7 : t.val % 8 = 7 := (flush0_2 t).mp hf
  obtain ⟨-, -, -, e0, e1, e2⟩ := idx_slabs t
  show (cfg0.win 2).cut (grid0.coords t) ((dats m 0 c).after 2 t) = _
  rw [after0_2]
  funext y
  rw [View.read_apply]
  show (outsAt0 m c t.val t.isLt).2 _ = colArr (X m c) _
  rw [acc_col]
  unfold colArr
  have hy : (y 0).val < 1 := (y 0).isLt
  refine congrArg₂ (runCol (X m c)) ?_ (Fin.ext ?_)
  · show t.val = 8 * (win0_2.index t (0 : Fin 3) * 1 + 1 * (y 0).val) + 7
    omega
  · show (y 2).val = win0_2.index t (2 : Fin 3) * 4096 + 1 * (y 2).val
    omega

/-- An index of the scalar array is in step t's block iff each coordinate is in the block's range. -/
theorem mem_sq (t : Fin cfg0.N) (i : S2x8x128.Idx) :
    i ∈ ((cfg0.win 1).blk t).view.set ↔ ∀ a : Fin 3, win0_1.index t a * S1x8x128.size a ≤ (i a).val ∧ (i a).val < win0_1.index t a * S1x8x128.size a + S1x8x128.size a := by
  show i ∈ ((View.whole main_v0_0).slice (win0_1.rect t)).set ↔ _
  rw [View.set_slice_whole, Rect.mem_set_unit]
  exact Iff.rfl

theorem mem_col (t : Fin cfg0.N) (i : S2x8x4096.Idx) :
    i ∈ ((cfg0.win 2).blk t).view.set ↔ ∀ a : Fin 3, win0_2.index t a * S1x8x4096.size a ≤ (i a).val ∧ (i a).val < win0_2.index t a * S1x8x4096.size a + S1x8x4096.size a := by
  show i ∈ ((View.whole main_v0_1).slice (win0_2.rect t)).set ↔ _
  rw [View.set_slice_whole, Rect.mem_set_unit]
  exact Iff.rfl

/-- The last step of run c (step 8c + 7). -/
def lastOf (q : ℕ) (hq : q < 2) : Fin cfg0.N := ⟨8 * q + 7, by rw [show cfg0.N = 16 from N_0]; omega⟩

/-- The scalar array after the region. -/
theorem final_sq (c : Dev nD) : (dats m 0 c).arrAt 1 cfg0.N = sqArr (X m c) :=
  (dats m 0 c).arrAt_eq_of_cover 1 (sqArr (X m c)) (flushed_sq m c) fun i => by
    have h0 : (i 0).val < 2 := (i 0).isLt
    have h1 : (i 1).val < 8 := (i 1).isLt
    have h2 : (i 2).val < 128 := (i 2).isLt
    refine ⟨lastOf (i 0).val h0, (flush0_1 _).mpr (by show (8 * (i 0).val + 7) % 8 = 7; omega), ?_⟩
    rw [mem_sq]
    obtain ⟨e0, e1, e2, -, -, -⟩ := idx_slabs (lastOf (i 0).val h0)
    have ev : (lastOf (i 0).val h0).val = 8 * (i 0).val + 7 := rfl
    intro a
    match a with
    | ⟨0, _⟩ => show win0_1.index (lastOf (i 0).val h0) (0 : Fin 3) * 1 ≤ (i 0).val ∧ (i 0).val < win0_1.index (lastOf (i 0).val h0) (0 : Fin 3) * 1 + 1; omega
    | ⟨1, _⟩ => show win0_1.index (lastOf (i 0).val h0) (1 : Fin 3) * 8 ≤ (i 1).val ∧ (i 1).val < win0_1.index (lastOf (i 0).val h0) (1 : Fin 3) * 8 + 8; omega
    | ⟨2, _⟩ => show win0_1.index (lastOf (i 0).val h0) (2 : Fin 3) * 128 ≤ (i 2).val ∧ (i 2).val < win0_1.index (lastOf (i 0).val h0) (2 : Fin 3) * 128 + 128; omega

/-- The column array after the region. -/
theorem final_col (c : Dev nD) : (dats m 0 c).arrAt 2 cfg0.N = colArr (X m c) :=
  (dats m 0 c).arrAt_eq_of_cover 2 (colArr (X m c)) (flushed_col m c) fun i => by
    have h0 : (i 0).val < 2 := (i 0).isLt
    have h1 : (i 1).val < 8 := (i 1).isLt
    have h2 : (i 2).val < 4096 := (i 2).isLt
    refine ⟨lastOf (i 0).val h0, (flush0_2 _).mpr (by show (8 * (i 0).val + 7) % 8 = 7; omega), ?_⟩
    rw [mem_col]
    obtain ⟨-, -, -, e0, e1, e2⟩ := idx_slabs (lastOf (i 0).val h0)
    have ev : (lastOf (i 0).val h0).val = 8 * (i 0).val + 7 := rfl
    intro a
    match a with
    | ⟨0, _⟩ => show win0_2.index (lastOf (i 0).val h0) (0 : Fin 3) * 1 ≤ (i 0).val ∧ (i 0).val < win0_2.index (lastOf (i 0).val h0) (0 : Fin 3) * 1 + 1; omega
    | ⟨1, _⟩ => show win0_2.index (lastOf (i 0).val h0) (1 : Fin 3) * 8 ≤ (i 1).val ∧ (i 1).val < win0_2.index (lastOf (i 0).val h0) (1 : Fin 3) * 8 + 8; omega
    | ⟨2, _⟩ => show win0_2.index (lastOf (i 0).val h0) (2 : Fin 3) * 4096 ≤ (i 2).val ∧ (i 2).val < win0_2.index (lastOf (i 0).val h0) (2 : Fin 3) * 4096 + 4096; omega

end Cert.KernelIdeal.Accum

end
-- ==== Proof.Tail.lean ====
/-
  The host's reading of the two output arrays, and the closing expression both programs share.

  After the region the host takes entry (c, 0, 0) of the scalar array [2, 8, 128] for each slab c and adds the two up
  from zero, and takes row (c, 0, ·) of the column array [2, 8, 4096] and adds the two rows up from zero, lane by
  lane. From there on the kernel's host code and the reference run the same three operations on a scalar s and a
  row v:   8192 · s  −  ∑_d v(d)·v(d).   That closing expression is named here once (loss) so that the
  comparison of the two programs only has to compare s and v.
-/
import proofs.«127539_j11665131176104_2_alg».proof.KernelIdeal
import proofs.«127539_j11665131176104_2_alg».proof.Proof.Sums
import Idealize.ShloMosaic.Lib.Pipeline.Value
import Idealize.ShloMosaic.PureOps.Ideal.Laws

noncomputable section

open Idealize.ShloMosaic Idealize.ShloMosaic.ValueIdx
open scoped BigOperators

namespace Cert.KernelIdeal.Tail

open Cert.KernelIdeal Cert.Streaming

/-- The closing expression: 8192 · s − ∑_d v(d)², as the host computes it (a product, a product, a sum from zero,
    a difference). -/
def loss (s : S_.Idx → EReal) (v : S4096.Idx → EReal) (hr : S4096.ReducesTo [0] S_) (h0 : 0 < S_.numel) : S_.Idx → EReal :=
  subf (F := Ideal) (φ := .f32) (mulf (F := Ideal) (φ := .f32) (constant (F := Ideal) S_ .f32 0x46000000#32) s)
    (Host.reduceAdd (F := Ideal) (φ := .f32) (mulf (F := Ideal) (φ := .f32) v v) (constant (F := Ideal) S_ .f32 0x00000000#32) hr h0)

/-- A rank-1 index set is its coordinate's range, -/
def idxEquiv1 {n : Nat} : (⟨1, ![n]⟩ : Shape).Idx ≃ Fin n where
  toFun i := i 0
  invFun a := ix1 a
  left_inv i := (eq_ix1 i).symm
  right_inv _ := rfl

/-- so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Entry (c, 0, 0) of each slab, added up from zero. -/
theorem slabs_sq (A : FVec Ideal S2x8x128 .f32) (hs : S2x8x128.Slices ![0, 0, 0] S2x1x1) (hc : S2x1x1.ShapeCasts S2)
    (hr : S2.ReducesTo [0] S_) (h0 : 0 < S_.numel) (i : S_.Idx) :
    Host.reduceAdd (F := Ideal) (φ := .f32) (shapeCast S2 (extractStridedSlice S2x1x1 ![0, 0, 0] A hs) hc)
        (constant (F := Ideal) S_ .f32 0x00000000#32) hr h0 i
      = Ideal.ofBits .f32 0x00000000#32 + ∑ c : Fin 2, A (ix3 c (0 : Fin 8) (0 : Fin 128)) := by
  simp only [Host.reduceAdd, Ideal.hostReduceAdd_def]
  refine (Ideal.hostReduceAdd_total hr (fun b => b.elim0) _ _ i).trans ?_
  refine congrArg₂ (· + ·) rfl ?_
  rw [sum_idx1]
  refine Finset.sum_congr rfl fun c _ => ?_
  refine (shapeCast_apply _ hc (ix1 c) (ix3 c (0 : Fin 1) (0 : Fin 1)) ?_).trans ?_
  · rw [Shape.rowMajor_val_three, Shape.rowMajor_val_one]
    show (c.val * 1 + 0) * 1 + 0 = c.val
    omega
  · refine extractStridedSlice_apply _ A hs _ (ix3 c (0 : Fin 8) (0 : Fin 128)) fun a => ?_
    match a with
    | ⟨0, _⟩ => show c.val = 0 + c.val; omega
    | ⟨1, _⟩ => rfl
    | ⟨2, _⟩ => rfl

/-- Row (c, 0, ·) of each slab, added up from zero, at lane d. -/
theorem slabs_col (A : FVec Ideal S2x8x4096 .f32) (hs : S2x8x4096.Slices ![0, 0, 0] S2x1x4096) (hc : S2x1x4096.ShapeCasts S2x4096)
    (hr : S2x4096.ReducesTo [0] S4096) (h0 : 0 < S_.numel) (d : Fin 4096) :
    Host.reduceAdd (F := Ideal) (φ := .f32) (shapeCast S2x4096 (extractStridedSlice S2x1x4096 ![0, 0, 0] A hs) hc)
        (constant (F := Ideal) S_ .f32 0x00000000#32) hr h0 (ix1 d)
      = Ideal.ofBits .f32 0x00000000#32 + ∑ c : Fin 2, A (ix3 c (0 : Fin 8) d) := by
  simp only [Host.reduceAdd, Ideal.hostReduceAdd_def]
  rw [Ideal.hostReduceAdd_single hr (by decide)]
  refine congrArg₂ (· + ·) rfl (Finset.sum_congr rfl fun c _ => ?_)
  refine (shapeCast_apply _ hc _ (ix3 c (0 : Fin 1) d) ?_).trans ?_
  · rw [Shape.rowMajor_val_three, Shape.rowMajor_val_two]
    show (c.val * 1 + 0) * 4096 + d.val = c.val * 4096 + d.val
    omega
  · refine extractStridedSlice_apply _ A hs _ (ix3 c (0 : Fin 8) d) fun a => ?_
    match a with
    | ⟨0, _⟩ => show c.val = 0 + c.val; omega
    | ⟨1, _⟩ => rfl
    | ⟨2, _⟩ => show d.val = 0 + d.val; omega

/-- The scalar the kernel's host code feeds the closing expression: zero plus the sum of every entry's square. -/
theorem host_sq (X : Arr) (hs : S2x8x128.Slices ![0, 0, 0] S2x1x1) (hc : S2x1x1.ShapeCasts S2)
    (hr : S2.ReducesTo [0] S_) (h0 : 0 < S_.numel) :
    Host.reduceAdd (F := Ideal) (φ := .f32) (shapeCast S2 (extractStridedSlice S2x1x1 ![0, 0, 0] (sqArr X) hs) hc)
        (constant (F := Ideal) S_ .f32 0x00000000#32) hr h0
      = fun _ => Ideal.ofBits .f32 0x00000000#32 + ∑ j, X j * X j := by
  funext i
  rw [slabs_sq, ← total_sq X]
  rfl

/-- The row the kernel's host code feeds the closing expression: zero plus each column's sum. -/
theorem host_col (X : Arr) (hs : S2x8x4096.Slices ![0, 0, 0] S2x1x4096) (hc : S2x1x4096.ShapeCasts S2x4096)
    (hr : S2x4096.ReducesTo [0] S4096) (h0 : 0 < S_.numel) :
    Host.reduceAdd (F := Ideal) (φ := .f32) (shapeCast S2x4096 (extractStridedSlice S2x1x4096 ![0, 0, 0] (colArr X) hs) hc)
        (constant (F := Ideal) S_ .f32 0x00000000#32) hr h0
      = fun i => Ideal.ofBits .f32 0x00000000#32 + ∑ R : Fin 8192, X (ix2 R (i 0)) := by
  funext i
  obtain ⟨d, rfl⟩ : ∃ d : Fin 4096, i = ix1 d := ⟨i 0, eq_ix1 i⟩
  rw [slabs_col, ← total_col X d]
  rfl

end Cert.KernelIdeal.Tail

end
-- ==== Proof.KernelRun.lean ====
/-
  The kernel program's whole run, read.

  The region leaves the scalar array at sqArr X and the column array at colArr X (FinalArrays.lean); the host
  operations after it read slab entries (c, 0, 0) and slab rows (c, 0, ·), add the two slabs up, and apply the closing
  expression. By Sums.lean's totals the scalar is  0 + ∑_j X(j)²  and the row is  d ↦ 0 + ∑_R X(R, d):  the
  result is the closing expression of exactly the scalar and row the reference computes.
-/
import proofs.«127539_j11665131176104_2_alg».proof.Proof.FinalArrays
import proofs.«127539_j11665131176104_2_alg».proof.Proof.Tail
import Idealize.ShloMosaic.Lib.StableHlo.Run

noncomputable section

open Idealize.ShloMosaic Idealize.ShloMosaic.TcCoe Idealize.SL.Sem Idealize.ShloMosaic.ValueIdx
open Idealize.ShloMosaic.Pipeline (Dat)
open scoped BigOperators

namespace Cert.KernelIdeal.Accum

open Cert.KernelIdeal Cert.KernelIdeal.Gen Cert.KernelIdeal.Body Cert.Streaming Idealize.ShloMosaic.StableHlo

variable (m : (ℓ : Loc nD τ sig) → Buf (Elt Ideal) ℓ) (ρ : Dev nD → PrngReg)

/-- The result as a function of the argument array: the closing expression of the total sum of squares and the
    column sums, each started from the zero the host sums start from. -/
abbrev result (x : Arr) : S_.Idx → EReal :=
  Tail.loss (fun _ => Ideal.ofBits .f32 0x00000000#32 + ∑ j, x j * x j)
    (fun i => Ideal.ofBits .f32 0x00000000#32 + ∑ R : Fin 8192, x (ix2 R (i 0))) reducesTo_S4096_S_d0 h_S_

/-- What the host operations after the region leave in the result buffer. -/
theorem tail_eq (c : Dev nD) :
    Pipeline.afterTail₀ cfgs (dats m) 0 (V0 m) [hostOps1] c main_v10 = result (X m c) := by
  have w1 : Pipeline.withArrays (cfgs 0).spec c (V0 m c) (fun w => (dats m 0 c).arrAt w (cfgs 0).N) (Proc.devRef .tc main_v0_0)
      = sqArr (X m c) := (Pipeline.withArrays_arr spec0 launch0.win.arr_inj c _ _ 1).trans (final_sq m c)
  have w2 : Pipeline.withArrays (cfgs 0).spec c (V0 m c) (fun w => (dats m 0 c).arrAt w (cfgs 0).N) (Proc.devRef .tc main_v0_1)
      = colArr (X m c) := (Pipeline.withArrays_arr spec0 launch0.win.arr_inj c _ _ 2).trans (final_col m c)
  unfold Pipeline.afterTail₀
  show StableHlo.after hostOps1 _ (Proc.devRef .tc main_v10) = _
  after_results
  rw [w1, w2]
  exact congrArg₂ (fun s v => Tail.loss s v reducesTo_S4096_S_d0 h_S_)
    (Tail.host_sq (X m c) slices_S2x8x128_S2x1x1_0_0_0 shapeCasts_S2x1x1_S2 reducesTo_S2_S_d0 h_S_)
    (Tail.host_col (X m c) slices_S2x8x4096_S2x1x4096_0_0_0 shapeCasts_S2x1x4096_S2x4096 reducesTo_S2x4096_S4096_d0 h_S_)

/-- The run: every weakly fair execution terminates with the result buffer at the closing expression of the
    argument array's sums, and the argument array unchanged. -/
theorem run : θ_run defs (onTc (τ := τ) (main (F := Ideal))) ⟨m, fun _ => 0, ρ⟩ fun r => ∀ c : Dev nD,
      r.2.mem ((c.tc : Thread nD τ).loc main_v10) = result (m ((c.tc : Thread nD τ).loc main_arg0))
      ∧ r.2.mem ((c.tc : Thread nD τ).loc main_arg0) = m ((c.tc : Thread nD τ).loc main_arg0) :=
  (θ_run defs _ _).mono (fun r h c => ⟨((h c).2 main_v10 (by decide)).trans (tail_eq m c),
      ((h c).1 0).trans (((dats m 0 c).arrAt_in 0 rfl _).trans ((A_eq m c 0).trans (V_main_arg0 m c)))⟩)
    (run_main m ρ)

end Cert.KernelIdeal.Accum

end
-- ==== Proof.RefSide.lean ====
/-
  The reference, read as the same closing expression of the same scalar and row.

  The reference multiplies the array by itself and sums every entry from zero (the scalar), sums the array down
  its rows from zero (the row), and then computes 8192 · scalar − ∑_d row(d)²: the closing expression of
  Tail.lean, at   0 + ∑_j X(j)²   and   d ↦ 0 + ∑_R X(R, d).
-/
import proofs.«127539_j11665131176104_2_alg».proof.Proof.Gen.ReferenceIdeal.Read
import proofs.«127539_j11665131176104_2_alg».proof.Proof.Tail

noncomputable section

open Idealize.ShloMosaic Idealize.ShloMosaic.ValueIdx
open scoped BigOperators

namespace Cert.ReferenceIdeal.Hand

open Cert.ReferenceIdeal Cert.ReferenceIdeal.Gen Cert.ReferenceIdeal.Read Cert.Streaming

/-- The reference's scalar: zero plus the sum of every entry's square. -/
theorem ref_sq (x : Arr) :
    val_main_v1 (F := Ideal) x = fun _ => Ideal.ofBits .f32 0x00000000#32 + ∑ j, x j * x j := by
  funext i
  rw [val_main_v1_apply]
  rfl

/-- The reference's row: zero plus each column's sum. -/
theorem ref_col (x : Arr) :
    val_main_v2 (F := Ideal) x = fun i => Ideal.ofBits .f32 0x00000000#32 + ∑ R : Fin 8192, x (ix2 R (i 0)) := by
  funext i
  rw [val_main_v2_apply]
  refine congrArg₂ (· + ·) rfl (Finset.sum_congr rfl fun k _ => congrArg x ?_)
  funext a
  match a with
  | ⟨0, _⟩ => rfl
  | ⟨1, _⟩ => rfl

/-- The reference's result is the closing expression of that scalar and that row. -/
theorem ref_loss (x : Arr) (hr : Cert.KernelIdeal.S4096.ReducesTo [0] Cert.KernelIdeal.S_) (h0 : 0 < Cert.KernelIdeal.S_.numel) :
    val_main_v6 (F := Ideal) x
      = Cert.KernelIdeal.Tail.loss (fun _ => Ideal.ofBits .f32 0x00000000#32 + ∑ j, x j * x j)
          (fun i => Ideal.ofBits .f32 0x00000000#32 + ∑ R : Fin 8192, x (ix2 R (i 0))) hr h0 := by
  rw [← ref_sq x, ← ref_col x]
  rfl

end Cert.ReferenceIdeal.Hand

end
-- ==== Proof.lean ====
/-
  A streaming reduction against its closed form:  n·∑ᵢ‖xᵢ‖² − ‖∑ᵢ xᵢ‖²  for an 8192×4096 array x  (n = 8192).

  The reference computes the scalar  s = 0 + ∑_{R,d} x(R,d)²,  the row  v(d) = 0 + ∑_R x(R,d),  and returns
  8192·s − ∑_d v(d)².  The kernel streams x in sixteen blocks of 512 rows, eight per core: each step adds the block's
  sum of squares (down the columns, then across them) to a scalar accumulator block and the block's column sums to a
  column accumulator block, both zeroed at the first step of a core's run and written back after its last; the host
  then adds the two cores' values and applies the same closing expression.

  Over the extended reals addition is commutative and associative and zero is neutral, so cutting the rows into
  blocks, the blocks into two runs, and summing lanes-then-rows or rows-then-lanes leaves both s and v unchanged
  (Sums.lean); no finiteness of the entries is used. The modules:
    BodyPieces  what one step's stores leave in the two accumulator blocks, as terms of the input block;
    BodyValue   those terms read as sums over the extended reals;
    Sums        the arithmetic: block sums, running sums of a run, and the two totals;
    Steps       one step takes the running sums to the next running sums;
    Accumulate  by induction on the step, the accumulator blocks hold the running sums;
    FinalArrays the two output arrays after the region hold each run's complete sums;
    Tail        the host's reading of those arrays and the closing expression both programs share;
    KernelRun   the kernel program's run read as the closing expression of s and v;
    RefSide     the reference read as the same.
  The three frames are the generated frame runs (the reference's is its run with the result dropped); the ideal pass
  rewrote nothing, so the idealization claim is trivial.
-/
import proofs.«127539_j11665131176104_2_alg».proof.Defs
import proofs.«127539_j11665131176104_2_alg».proof.Proof.Gen.Kernel
import proofs.«127539_j11665131176104_2_alg».proof.Proof.Gen.Kernel.Skeleton
import proofs.«127539_j11665131176104_2_alg».proof.Proof.Gen.Kernel.Launch
import proofs.«127539_j11665131176104_2_alg».proof.Proof.Gen.Kernel.Points
import proofs.«127539_j11665131176104_2_alg».proof.Proof.Gen.Kernel.Frame
import proofs.«127539_j11665131176104_2_alg».proof.Proof.Gen.KernelIdeal
import proofs.«127539_j11665131176104_2_alg».proof.Proof.Gen.KernelIdeal.Skeleton
import proofs.«127539_j11665131176104_2_alg».proof.Proof.Gen.KernelIdeal.Launch
import proofs.«127539_j11665131176104_2_alg».proof.Proof.Gen.KernelIdeal.Points
import proofs.«127539_j11665131176104_2_alg».proof.Proof.Gen.KernelIdeal.Frame
import proofs.«127539_j11665131176104_2_alg».proof.Proof.Gen.ReferenceIdeal
import proofs.«127539_j11665131176104_2_alg».proof.Proof.Gen.ReferenceIdeal.Run
import proofs.«127539_j11665131176104_2_alg».proof.Proof.Gen.ReferenceIdeal.Read
import proofs.«127539_j11665131176104_2_alg».proof.Proof.Gen.Pre_finite_inputs
import proofs.«127539_j11665131176104_2_alg».proof.Proof.KernelRun
import proofs.«127539_j11665131176104_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its argument array as it was. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- And the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the closing expression  8192·s − ∑_d v(d)²  of the same scalar s (zero plus the sum of the
    squares of every entry) and the same row v (zero plus each column's sum) of argument arrays that agree. -/
theorem algebraic : Cert.algebraic_KernelIdeal_ReferenceIdeal := by
  intro m ρ m' ρ' _ hagree
  refine ⟨fun c => Cert.KernelIdeal.Accum.result (m ((c.tc : Thread Cert.KernelIdeal.nD Cert.KernelIdeal.τ).loc Cert.KernelIdeal.main_arg0)),
    Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq,
    Cert.ReferenceIdeal.Hand.ref_loss _ Cert.KernelIdeal.Gen.reducesTo_S4096_S_d0 Cert.KernelIdeal.Gen.h_S_, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
